-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S128x4096 .f32 .bf16
  ∧ IdealRules.truncf_extf.Statement Cert.KernelIdeal.S128x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S512x512 : Shape := ⟨2, ![512, 512]⟩
abbrev S4096x512 : Shape := ⟨2, ![4096, 512]⟩
abbrev S512 : Shape := ⟨1, ![512]⟩
abbrev S512x4096 : Shape := ⟨2, ![512, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S512x4096 .f32) (main_arg5 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S1024x4096 .f32) (main_arg1 : FVec F S512x512 .f32) (main_arg2 : FVec F S4096x512 .f32) (main_arg3 : FVec F S512 .f32) (main_arg4 : FVec F S512x4096 .f32) (main_arg5 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S1024x4096 : Shape := ⟨2, ![1024, 4096]⟩
abbrev S512x512 : Shape := ⟨2, ![512, 512]⟩
abbrev S4096x512 : Shape := ⟨2, ![4096, 512]⟩
abbrev S512 : Shape := ⟨1, ![512]⟩
abbrev S512x4096 : Shape := ⟨2, ![512, 4096]⟩
abbrev S4096 : Shape := ⟨1, ![4096]⟩
abbrev S1x512 : Shape := ⟨2, ![1, 512]⟩
abbrev S1x4096 : Shape := ⟨2, ![1, 4096]⟩
abbrev S_ : Shape := ⟨0, ![]⟩
abbrev S1024x512 : Shape := ⟨2, ![1024, 512]⟩
abbrev S128x4096 : Shape := ⟨2, ![128, 4096]⟩
abbrev S128x512 : Shape := ⟨2, ![128, 512]⟩
abbrev S128 : Shape := ⟨1, ![128]⟩
abbrev S128x1 : Shape := ⟨2, ![128, 1]⟩

abbrev nBuf : Space → Nat
  | .hbm => 24
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S512x512, .f32⟩
  | .hbm, ⟨2, _⟩ => ⟨S4096x512, .f32⟩
  | .hbm, ⟨3, _⟩ => ⟨S512, .f32⟩
  | .hbm, ⟨4, _⟩ => ⟨S512x4096, .f32⟩
  | .hbm, ⟨5, _⟩ => ⟨S4096, .f32⟩
  | .hbm, ⟨6, _⟩ => ⟨S1x512, .f32⟩
  | .hbm, ⟨7, _⟩ => ⟨S1x4096, .f32⟩
  | .hbm, ⟨8, _⟩ => ⟨S4096x512, .bf16⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S512x512, .bf16⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S512x4096, .bf16⟩
  | .hbm, ⟨17, _⟩ => ⟨S512x512, .f32⟩
  | .hbm, ⟨18, _⟩ => ⟨S_, .f32⟩
  | .hbm, ⟨19, _⟩ => ⟨S512, .f32⟩
  | .hbm, ⟨20, _⟩ => ⟨S1x512, .f32⟩
  | .hbm, ⟨21, _⟩ => ⟨S1024x512, .f32⟩
  | .hbm, ⟨22, _⟩ => ⟨S1024x512, .f32⟩
  | .hbm, ⟨23, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S512x4096, .bf16⟩
  | .local _ .vmem, ⟨6, _⟩ => ⟨S1x4096, .f32⟩
  | .local _ .vmem, ⟨7, _⟩ => ⟨S512x512, .bf16⟩
  | .local _ .vmem, ⟨8, _⟩ => ⟨S512x512, .bf16⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x4096, .f32⟩
  | .local _ .vmem, ⟨15, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S512_S1x512 : S512.ShapeCasts S1x512
  shapeCasts_S4096_S1x4096 : S4096.ShapeCasts S1x4096
  bitsLt_bf16_f32 : FTy.bits .bf16 < FTy.bits .f32
  reducesTo_S512x512_S512_d1 : S512x512.ReducesTo [1] S512
  h_S_ : 0 < S_.numel
  inb_S128x4096_S128x4096_0_0 : ∀ a, (![0, 0] : Fin 2 → Nat) a + S128x4096.size a ≤ S128x4096.size a
  h_S128x4096 : 0 < S128x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S128x512_S128 : S128x512.Reduces [1] S128
  shapeCasts_S128_S128x1 : S128.ShapeCasts S128x1
  broadcasts_S128x1_S128x512 : S128x1.Broadcasts S128x512
  inb_S128x512_S128x512_0_0 : ∀ a, (![0, 0] : Fin 2 → Nat) a + S128x512.size a ≤ S128x512.size a
  h_S128x512 : 0 < S128x512.numel
  dot_S128x4096_S4096x512_S128x512_1_0_0_1_n_n_wf : DotDims.WF S128x4096 S4096x512 S128x512 [1] [0] [0] [1] [] []
  dot_S128x512_S512x4096_S128x4096_1_0_0_1_n_n_wf : DotDims.WF S128x512 S512x4096 S128x4096 [1] [0] [0] [1] [] []
  dot_S128x512_S512x512_S128x512_1_1_0_0_n_n_wf : DotDims.WF S128x512 S512x512 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x4096.size a
  hwx0_0 : ∀ i : grid0.Coords, EltTy.bits .f32 = 32 ∨ (Rect.block (s := S1024x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S1024x512.size a
  hwx0_9 : ∀ i : grid0.Coords, EltTy.bits .f32 = 32 ∨ (Rect.block (s := S1024x512) S128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S1024x512.size a
  hwx0_10 : ∀ i : grid0.Coords, EltTy.bits .f32 = 32 ∨ (Rect.block (s := S1024x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x4096.size a ≤ S1024x4096.size a
  hwx0_11 : ∀ i : grid0.Coords, EltTy.bits .f32 = 32 ∨ (Rect.block (s := S1024x4096) S128x4096.size (cc0_transform_11 i) (hinb0_11 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S128x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S128x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S512x512 : Shape := ⟨2, ![512, 512]⟩
abbrev S4096x512 : Shape := ⟨2, ![4096, 512]⟩
abbrev S512 : Shape := ⟨1, ![512]⟩
abbrev S512x4096 : Shape := ⟨2, ![512, 4096]⟩
abbrev S4096 : Shape := ⟨1, ![4096]⟩
abbrev S1024x512 : Shape := ⟨2, ![1024, 512]⟩
abbrev S1x512 : Shape := ⟨2, ![1, 512]⟩
abbrev S1x4096 : Shape := ⟨2, ![1, 4096]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1024 : Shape := ⟨1, ![1024]⟩
abbrev S1024x1 : Shape := ⟨2, ![1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S512x512, .f32⟩
  | .hbm, ⟨2, _⟩ => ⟨S4096x512, .f32⟩
  | .hbm, ⟨3, _⟩ => ⟨S512, .f32⟩
  | .hbm, ⟨4, _⟩ => ⟨S512x4096, .f32⟩
  | .hbm, ⟨5, _⟩ => ⟨S4096, .f32⟩
  | .hbm, ⟨6, _⟩ => ⟨S1024x512, .f32⟩
  | .hbm, ⟨7, _⟩ => ⟨S1x512, .f32⟩
  | .hbm, ⟨8, _⟩ => ⟨S1024x512, .f32⟩
  | .hbm, ⟨9, _⟩ => ⟨S1024x512, .f32⟩
  | .hbm, ⟨10, _⟩ => ⟨S1024x4096, .f32⟩
  | .hbm, ⟨11, _⟩ => ⟨S1x4096, .f32⟩
  | .hbm, ⟨12, _⟩ => ⟨S1024x4096, .f32⟩
  | .hbm, ⟨13, _⟩ => ⟨S1024x4096, .f32⟩
  | .hbm, ⟨14, _⟩ => ⟨S1024x1x512, .f32⟩
  | .hbm, ⟨15, _⟩ => ⟨S1x512x512, .f32⟩
  | .hbm, ⟨16, _⟩ => ⟨S1024x512x512, .f32⟩
  | .hbm, ⟨17, _⟩ => ⟨S1024x512x512, .f32⟩
  | .hbm, ⟨18, _⟩ => ⟨S1024x512x512, .f32⟩
  | .hbm, ⟨19, _⟩ => ⟨S1024x512x512, .f32⟩
  | .hbm, ⟨20, _⟩ => ⟨S_, .f32⟩
  | .hbm, ⟨21, _⟩ => ⟨S1024x512, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S1024x512, .f32⟩
  | .hbm, ⟨35, _⟩ => ⟨S1024x512, .f32⟩
  | .hbm, ⟨36, _⟩ => ⟨S1024x512, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  bcast_S_S1024x512 : S_.BroadcastsInDim S1024x512 (![] : Fin 0 → Fin S1024x512.rank)
  dot_S1024x4096_S4096x512_S1024x512_1_0_0_1_n_n_wf : DotDims.WF S1024x4096 S4096x512 S1024x512 [1] [0] [0] [1] [] []
  dot_S1024x512_S512x4096_S1024x4096_1_0_0_1_n_n_wf : DotDims.WF S1024x512 S512x4096 S1024x4096 [1] [0] [0] [1] [] []

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf

class Facts : Prop extends Facts₀ where

variable [Facts]
-- ==== Proof.RealInputs.lean ====
/-
  The precondition makes every entry of every input array a real number.

  The precondition is a conjunction of six statements, one per input array `a`: "every entry of `|a|` is
  below the word of +∞", each stated as an `and`-reduction over all axes of the array of comparisons
  `|a i| < +∞`.  At the extended reals `|x| = max x (−x)`, and `max x (−x) < ⊤` excludes both `x = ⊤` and
  `x = ⊥` (for which `−x = ⊤`), so `x` is a real number.
-/
import proofs.«145956_j63814624084665_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.RealInputs

open Idealize.ShloMosaic

/-- Every entry of the array is a real number (neither +∞ nor −∞). -/
def AllReal {s : Shape} (a : s.Idx → EReal) : Prop := ∀ i : s.Idx, ∃ r : ℝ, a i = (r : EReal)

/-- The word `0x7F800000` (sign 0, exponent all ones, fraction 0) denotes +∞. -/
private theorem ofBits_inf : Ideal.ofBits .f32 0x7F800000#32 = (⊤ : EReal) := by
  simp [Ideal.ofBits, Ideal.ieee]

/-- An extended real whose absolute value max x (−x) is below the word of +∞ is a real number. -/
theorem real_of_abs_lt_top (x : EReal) (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The result shape of a reduction over all axes has exactly one index. -/
private instance : Subsingleton Cert.Pre_finite_inputs.S_.Idx := ⟨fun _ _ => funext fun d => d.elim0⟩

/-- One conjunct read back: if the `and`-reduction over all axes of the comparisons `|a i| < +∞` is 1, then every
    entry of `a` is a real number. -/
private theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu j = 1#1) :
    AllReal a := by
  intro i
  -- every comparison that reduces into the one result is 1; the comparison at `i` is `max (a i) (−a i) < +∞`
  exact real_of_abs_lt_top (a i) (Host.reduce_andi_all _ _ hr hu j e i)

theorem allReal_of_pre [Cert.Pre_finite_inputs.Facts]
    (a0 : FVec Ideal Cert.Pre_finite_inputs.S1024x4096 .f32) (a1 : FVec Ideal Cert.Pre_finite_inputs.S512x512 .f32)
    (a2 : FVec Ideal Cert.Pre_finite_inputs.S4096x512 .f32) (a3 : FVec Ideal Cert.Pre_finite_inputs.S512 .f32)
    (a4 : FVec Ideal Cert.Pre_finite_inputs.S512x4096 .f32) (a5 : FVec Ideal Cert.Pre_finite_inputs.S4096 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  -- the predicate's one result word, with the six reductions in view
  have e := congrFun h ValueIdx.ix0
  dsimp only [Cert.Pre_finite_inputs.fn, Cert.Pre_finite_inputs.fn_part1] at e
  -- the result is the conjunction ((((v3 ∧ v7) ∧ v12) ∧ v17) ∧ v22) ∧ v27 of the six reductions
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5⟩

end Cert.RealInputs

end
-- ==== Proof.RowSpec.lean ====
/-
  What both programs compute, one input row at a time.

  A row `x` of 4096 numbers is ENCODED to `e = x·W + b` (512 numbers), the code is DECODED to `e·W' + b'`
  (4096 numbers), and the code's squared distance to each of the 512 cluster rows `c j` is `Σ_k (e k − c j k)²`.
  A row `d` of 512 distances is then weighted: entry `j` becomes
  `d j · exp (a · (d j − min d)) / Σ_l exp (a · (d l − min d))`, with `a` the sharpness constant −1000.

  Every output row of either program depends on the same row of the data and on the whole weight arrays only, so these
  four functions of a row are the whole specification. The three float constants that occur (0, +∞ as the start of
  the minimum, −1000) are kept as their words: both programs spell the same words, so they are never evaluated.
-/
import Idealize.ShloMosaic.PureOps.Ideal

noncomputable section

namespace Cert.RowSpec

open Idealize.ShloMosaic

/-- The word of 0.0, the start of every sum. -/
abbrev zeroW : EReal := Ideal.ofBits .f32 0x00000000#32
/-- The word of +∞, the start of the row minimum. -/
abbrev topW : EReal := Ideal.ofBits .f32 0x7F800000#32
/-- The word of −1000.0, the sharpness of the weighting. -/
abbrev sharpW : EReal := Ideal.ofBits .f32 0xC47A0000#32

/-- The code of a data row: `e k = Σ_i x i · W i k + b k`. -/
def encode (w : Fin 4096 → Fin 512 → EReal) (b : Fin 512 → EReal) (x : Fin 4096 → EReal) (k : Fin 512) : EReal :=
  (∑ i : Fin 4096, x i * w i k) + b k

/-- The reconstruction of a code: `Σ_k e k · W' k n + b' n`. -/
def decode (w' : Fin 512 → Fin 4096 → EReal) (b' : Fin 4096 → EReal) (e : Fin 512 → EReal) (n : Fin 4096) : EReal :=
  (∑ k : Fin 512, e k * w' k n) + b' n

/-- The squared distance of a code to cluster row `j`: `0 + Σ_k (e k − c j k)²`. -/
def sqDist (c : Fin 512 → Fin 512 → EReal) (e : Fin 512 → EReal) (j : Fin 512) : EReal :=
  zeroW + ∑ k : Fin 512, (e k - c j k) * (e k - c j k)

/-- The least entry of a row of distances, folded from +∞. -/
def rowMin (d : Fin 512 → EReal) : EReal := (Finset.univ : Finset (Fin 512)).fold min topW d

/-- The unnormalised weight of entry `j`: `exp (−1000 · (d j − min d))`. -/
def rawWeight (d : Fin 512 → EReal) (j : Fin 512) : EReal := Ideal.exp (sharpW * (d j - rowMin d))

/-- A row of distances, each weighted by its normalised weight. -/
def weighted (d : Fin 512 → EReal) (j : Fin 512) : EReal :=
  d j * Ideal.div (rawWeight d j) (zeroW + ∑ l : Fin 512, rawWeight d l)

end Cert.RowSpec

end
-- ==== Proof.RefRows.lean ====
/-
  Each of the reference program's three results, read at an index, is the row specification.

  The reference computes, for every data row p: the code e = x·W + b, the reconstruction e·W' + b', the squared
  distances d j = 0 + Σ_k (e k − c j k)² to the cluster rows, and the distances weighted by
  exp (a·(d j − min d)) / (0 + Σ_l exp (a·(d l − min d))). Read at the index (p, n) or (p, j), each operation of the
  reference is its operands at indices computed from the literal shapes; composing these readings and identifying
  the composed indices with their coordinates gives exactly the specification's functions of row p.
-/
import proofs.«145956_j63814624084665_2_alg».proof.Proof.Gen.ReferenceIdeal.Read
import proofs.«145956_j63814624084665_2_alg».proof.Proof.RowSpec
import Idealize.ShloMosaic.Lib.ValueIdx
import Idealize.ShloMosaic.PureOps.Ideal.Laws
noncomputable section
namespace Cert.RefRows
open Idealize.ShloMosaic Idealize.ShloMosaic.ValueIdx Cert.ReferenceIdeal Cert.ReferenceIdeal.Read Cert.RowSpec
-- the arrays: x0 data [1024,4096], x1 clusters [512,512], x2 encoder weight [4096,512], x3 encoder bias [512], x4 decoder weight [512,4096], x5 decoder bias [4096]
variable (x0 : (⟨S1024x4096, .f32⟩ : BufTy).Contents (Elt Ideal)) (x1 : (⟨S512x512, .f32⟩ : BufTy).Contents (Elt Ideal)) (x2 : (⟨S4096x512, .f32⟩ : BufTy).Contents (Elt Ideal)) (x3 : (⟨S512, .f32⟩ : BufTy).Contents (Elt Ideal)) (x4 : (⟨S512x4096, .f32⟩ : BufTy).Contents (Elt Ideal)) (x5 : (⟨S4096, .f32⟩ : BufTy).Contents (Elt Ideal))
/-- The code of data row p, as the specification's function of the arrays. -/
abbrev codeRow (p : Fin 1024) : Fin 512 → EReal := encode (fun i k => x2 (ix2 i k)) (fun k => x3 (ix1 k)) (fun i => x0 (ix2 p i))
/-- Row p of the distances. -/
abbrev distRow (p : Fin 1024) : Fin 512 → EReal := sqDist (fun j k => x1 (ix2 j k)) (codeRow x0 x2 x3 p)

/-! ## The composed index functions of the reference's layout operations, at an index given by coordinates -/

private theorem lidx0_ix (p : Fin 1024) (k : Fin 512) (i : Fin 4096) : lidx_main_v0 (ix2 p k) i = ix2 p i :=
  funext fun a => Fin.ext (by match a with | ⟨0, _⟩ => rfl | ⟨1, _⟩ => rfl)
private theorem ridx0_ix (p : Fin 1024) (k : Fin 512) (i : Fin 4096) : ridx_main_v0 (ix2 p k) i = ix2 i k :=
  funext fun a => Fin.ext (by match a with | ⟨0, _⟩ => rfl | ⟨1, _⟩ => rfl)
private theorem idx12_ix (p : Fin 1024) (k : Fin 512) : idx_main_v1 (idx_main_v2 (ix2 p k)) = ix1 k :=
  funext fun a => Fin.ext (by match a with | ⟨0, _⟩ => rfl)

/-- The encoder's result at (p, k) is entry k of the code of row p. -/
private theorem ref_code (p : Fin 1024) (k : Fin 512) :
    val_main_v3 (F := Ideal) x0 x2 x3 (ix2 p k) = codeRow x0 x2 x3 p k := by
  rw [val_main_v3_apply, val_main_v0_apply, val_main_v2_apply, val_main_v1_apply, idx12_ix]
  refine congrArg (· + x3 (ix1 k)) (Finset.sum_congr rfl fun i _ => ?_)
  rw [lidx0_ix, ridx0_ix]

private theorem lidx4_ix (p : Fin 1024) (n : Fin 4096) (k : Fin 512) : lidx_main_v4 (ix2 p n) k = ix2 p k :=
  funext fun a => Fin.ext (by match a with | ⟨0, _⟩ => rfl | ⟨1, _⟩ => rfl)
private theorem ridx4_ix (p : Fin 1024) (n : Fin 4096) (k : Fin 512) : ridx_main_v4 (ix2 p n) k = ix2 k n :=
  funext fun a => Fin.ext (by match a with | ⟨0, _⟩ => rfl | ⟨1, _⟩ => rfl)
private theorem idx56_ix (p : Fin 1024) (n : Fin 4096) : idx_main_v5 (idx_main_v6 (ix2 p n)) = ix1 n :=
  funext fun a => Fin.ext (by match a with | ⟨0, _⟩ => rfl)

/-- The reference's reconstruction at (p, n) is entry n of the decoding of the code of row p. -/
theorem ref_reconstruction (p : Fin 1024) (n : Fin 4096) :
    val_main_v7 (F := Ideal) x0 x2 x3 x4 x5 (ix2 p n) = decode (fun k n => x4 (ix2 k n)) (fun n => x5 (ix1 n)) (codeRow x0 x2 x3 p) n := by
  rw [val_main_v7_apply, val_main_v4_apply, val_main_v6_apply, val_main_v5_apply, idx56_ix]
  refine congrArg (· + x5 (ix1 n)) (Finset.sum_congr rfl fun k _ => ?_)
  rw [lidx4_ix, ridx4_ix, ref_code]

private theorem idx8_10_14_ix (p : Fin 1024) (j k : Fin 512) : idx_main_v8 (idx_main_v10 (idx_main_v14 (ix2 p j) k)) = ix2 p k :=
  funext fun a => Fin.ext (by match a with | ⟨0, _⟩ => rfl | ⟨1, _⟩ => rfl)
private theorem idx9_11_14_ix (p : Fin 1024) (j k : Fin 512) : idx_main_v9 (idx_main_v11 (idx_main_v14 (ix2 p j) k)) = ix2 j k :=
  funext fun a => Fin.ext (by match a with | ⟨0, _⟩ => rfl | ⟨1, _⟩ => rfl)

/-- One term of a distance: the difference of the code and the cluster row at coordinate k. -/
private theorem ref_diff (p : Fin 1024) (j k : Fin 512) :
    val_main_v12 (F := Ideal) x0 x1 x2 x3 (idx_main_v14 (ix2 p j) k) = codeRow x0 x2 x3 p k - x1 (ix2 j k) := by
  rw [val_main_v12_apply, val_main_v10_apply, val_main_v8_apply, val_main_v11_apply, val_main_v9_apply,
    idx8_10_14_ix, idx9_11_14_ix, ref_code]
  rfl

/-- The reference's distances at (p, j) are entry j of row p of the distances: 0 + Σ_k (e k − c j k)². -/
theorem ref_distances (p : Fin 1024) (j : Fin 512) :
    val_main_v14 (F := Ideal) x0 x1 x2 x3 (ix2 p j) = distRow x0 x1 x2 x3 p j := by
  rw [val_main_v14_apply]
  refine congrArg (zeroW + ·) (Finset.sum_congr rfl fun k _ => ?_)
  rw [val_main_v13_apply, ref_diff]
  rfl

/-! ## The row minimum -/

/-- The reduced index p with column k put back is (p, k). -/
private theorem lift_ix (h : S1024x512.Reduces [1] S1024) (p : Fin 1024) (k : Fin (S1024x512.size 1)) :
    h.lift (ix1 p) k = ix2 p (⟨k.val, k.isLt⟩ : Fin 512) := by
  funext c; apply Fin.ext
  fin_cases c <;> rfl

/-- The reference's row minimum at p is the least entry of row p of the distances, folded from +∞. -/
private theorem ref_rowMin (p : Fin 1024) :
    val_main_v15 (F := Ideal) x0 x1 x2 x3 (ix1 p) = rowMin (distRow x0 x1 x2 x3 p) := by
  have h : S1024x512.Reduces [1] S1024 := by decide
  unfold val_main_v15
  refine (Host.reduce_eq_fold_single (FloatOps.minimumf (F := Ideal) (φ := .f32)) (val_main_v14 (F := Ideal) x0 x1 x2 x3) _ _ h _ (ix1 p)).trans ?_
  have hf : (val_main_v14 (F := Ideal) x0 x1 x2 x3 ∘ h.lift (ix1 p)) = distRow x0 x1 x2 x3 p :=
    funext fun k => (congrArg (val_main_v14 (F := Ideal) x0 x1 x2 x3) (lift_ix h p k)).trans (ref_distances x0 x1 x2 x3 p _)
  rw [hf]
  rfl

/-! ## The weights -/

private theorem idx16_17_ix (p : Fin 1024) (j : Fin 512) : idx_main_v16 (idx_main_v17 (ix2 p j)) = ix1 p :=
  funext fun a => Fin.ext (by match a with | ⟨0, _⟩ => rfl)
private theorem idx23_24_ix (p : Fin 1024) (j : Fin 512) : idx_main_v23 (idx_main_v24 (ix2 p j)) = ix1 p :=
  funext fun a => Fin.ext (by match a with | ⟨0, _⟩ => rfl)
private theorem idx22_ix (p : Fin 1024) (l : Fin 512) : idx_main_v22 (ix1 p) l = ix2 p l :=
  funext fun a => Fin.ext (by match a with | ⟨0, _⟩ => rfl | ⟨1, _⟩ => rfl)

/-- The reference's exponential at (p, j) is the unnormalised weight of entry j of row p of the distances. -/
private theorem ref_raw (p : Fin 1024) (j : Fin 512) :
    val_main_v21 (F := Ideal) x0 x1 x2 x3 (ix2 p j) = rawWeight (distRow x0 x1 x2 x3 p) j := by
  rw [val_main_v21_apply, val_main_v20_apply, val_main_v19_apply, val_main_v18_apply, val_main_v17_apply,
    val_main_v16_apply, idx16_17_ix, ref_rowMin, ref_distances]
  rfl

/-- The reference's normaliser at p is the sum, from 0, of the unnormalised weights of row p. -/
private theorem ref_norm (p : Fin 1024) :
    val_main_v22 (F := Ideal) x0 x1 x2 x3 (ix1 p) = zeroW + ∑ l : Fin 512, rawWeight (distRow x0 x1 x2 x3 p) l := by
  rw [val_main_v22_apply]
  refine congrArg (zeroW + ·) (Finset.sum_congr rfl fun l _ => ?_)
  rw [idx22_ix, ref_raw]

/-- The reference's weighted distances at (p, j) are entry j of the weighting of row p of the distances. -/
theorem ref_weighted (p : Fin 1024) (j : Fin 512) :
    val_main_v26 (F := Ideal) x0 x1 x2 x3 (ix2 p j) = weighted (distRow x0 x1 x2 x3 p) j := by
  rw [val_main_v26_apply, val_main_v25_apply, val_main_v24_apply, val_main_v23_apply, idx23_24_ix, ref_norm,
    ref_raw, ref_distances]
  rfl
end Cert.RefRows
end
-- ==== Proof.LibSplitSquares.lean ====
/-
  Extended-real algebra for a product computed in "high + low" passes, and for a squared distance computed by the
  expansion ‖e‖² + ‖c‖² − 2 e·c. Everything is over an arbitrary finite index type.

  On the extended reals `x − x` is `0` only when `x` is a real number (at ±∞ the difference is not `0`), so the
  "low" half `x − x` of a split vanishes exactly on real data; once a low half is `0`, its products and their sum are
  `0` and the three-pass sum is the plain sum (`three_pass`). A dot product of real rows plus a real number is a real
  number (`real_dot_add`). For real rows `e` and `c` the expanded form, clamped below by `0`, is the sum of squared
  differences (`clamped_expansion`): the two are equal as real numbers, and a sum of squares is not negative, so the
  clamp does nothing.
-/
import Idealize.ShloMosaic.PureOps.Ideal

namespace Cert.LibSplitSquares

open Finset

variable {ι : Type*}

/-- The image in the extended reals of a finite sum of real numbers is the sum of the images. -/
theorem coe_sum (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A real number minus itself is `0` in the extended reals. -/
theorem coe_sub_self (r : ℝ) : (r : EReal) - (r : EReal) = 0 := by
  rw [← EReal.coe_sub, sub_self, EReal.coe_zero]

/-- The low half `x − x` of a real number is `0`. -/
theorem sub_self_of_real {x : EReal} (hx : ∃ r : ℝ, x = (r : EReal)) : x - x = 0 := by
  obtain ⟨r, rfl⟩ := hx
  exact coe_sub_self r

variable [Fintype ι]

/-- THREE PASSES ARE ONE: with the second operand's low half `lo` all `0` and the first operand real (so that its own
    low half `a − a` is `0`), `a·w + a·lo + (a − a)·w` is `a·w`. -/
theorem three_pass (a w lo : ι → EReal) (ha : ∀ i, ∃ r : ℝ, a i = (r : EReal)) (hlo : ∀ i, lo i = 0) :
    ((∑ i, a i * w i) + ∑ i, a i * lo i) + ∑ i, (a i - a i) * w i = ∑ i, a i * w i := by
  have h1 : ∀ i, a i * lo i = 0 := fun i => by rw [hlo i, mul_zero]
  have h2 : ∀ i, (a i - a i) * w i = 0 := fun i => by rw [sub_self_of_real (ha i), zero_mul]
  simp only [h1, h2, Finset.sum_const_zero, add_zero]

/-- A dot product of two real rows, plus a real number, is a real number. -/
theorem real_dot_add (a w : ι → EReal) (b : EReal) (ha : ∀ i, ∃ r : ℝ, a i = (r : EReal))
    (hw : ∀ i, ∃ r : ℝ, w i = (r : EReal)) (hb : ∃ r : ℝ, b = (r : EReal)) :
    ∃ r : ℝ, (∑ i, a i * w i) + b = (r : EReal) := by
  choose a' ha' using ha
  choose w' hw' using hw
  obtain ⟨b', rfl⟩ := hb
  refine ⟨(∑ i, a' i * w' i) + b', ?_⟩
  simp only [ha', hw']
  rw [EReal.coe_add, coe_sum]
  simp only [EReal.coe_mul]

/-- THE CLAMPED EXPANSION IS THE SUM OF SQUARED DIFFERENCES: for real rows `e`, `c` and a low half `lo` of `c` that
    is all `0`, `max ((Σ e² + (0 + Σ c²)) − 2·((Σ e·c + Σ e·lo) + Σ (e − e)·c)) 0 = 0 + Σ (e − c)²`. -/
theorem clamped_expansion (e c lo : ι → EReal) (he : ∀ k, ∃ r : ℝ, e k = (r : EReal))
    (hc : ∀ k, ∃ r : ℝ, c k = (r : EReal)) (hlo : ∀ k, lo k = 0) :
    max (((∑ k, e k * e k) + (0 + ∑ k, c k * c k))
          - 2 * (((∑ k, e k * c k) + ∑ k, e k * lo k) + ∑ k, (e k - e k) * c k)) 0
      = 0 + ∑ k, (e k - c k) * (e k - c k) := by
  rw [three_pass e c lo he hlo]
  choose e' he' using he
  choose c' hc' using hc
  simp only [he', hc', zero_add]
  have hreal : (∑ k, (e' k - c' k) * (e' k - c' k))
      = ((∑ k, e' k * e' k) + ∑ k, c' k * c' k) - 2 * ∑ k, e' k * c' k := by
    rw [Finset.mul_sum, ← Finset.sum_add_distrib, ← Finset.sum_sub_distrib]
    exact Finset.sum_congr rfl fun k _ => by ring
  have hnn : (0 : ℝ) ≤ ∑ k, (e' k - c' k) * (e' k - c' k) :=
    Finset.sum_nonneg fun k _ => mul_self_nonneg _
  have h2 : (2 : EReal) = ((2 : ℝ) : EReal) := by norm_cast
  simp only [← EReal.coe_mul, ← EReal.coe_sub, ← coe_sum, ← EReal.coe_add, h2]
  rw [← hreal, ← EReal.coe_zero]
  exact max_eq_left (EReal.coe_le_coe_iff.mpr hnn)

end Cert.LibSplitSquares
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.KernelDots.lean ====
/-
  The kernel's three matrix products, each read at one entry as a plain sum over the contracted axis.

  The encoder's product of a [128, 4096] block with a [4096, 512] matrix and the decoder's product of a [128, 512] block
  with a [512, 4096] matrix contract the left operand's columns with the right operand's rows: entry (p, q) is
  Σ_k l (p, k) · r (k, q). The product with the cluster rows contracts the SECOND axis of both operands (the cluster
  matrix is used transposed): entry (p, q) is Σ_k l (p, k) · r (q, k). Each product starts from the zero accumulator,
  which contributes nothing.
-/
import proofs.«145956_j63814624084665_2_alg».proof.Proof.Gen.KernelIdeal.Skeleton
import Idealize.ShloMosaic.Lib.ValueIdx
import Idealize.ShloMosaic.PureOps.Ideal.Laws

noncomputable section

namespace Cert.KernelDots

open Idealize.ShloMosaic Idealize.ShloMosaic.ValueIdx Cert.KernelIdeal Cert.KernelIdeal.Gen

/-- The encoder's product at (p, q): the sum over the 4096 columns of the block row and rows of the matrix. -/
theorem encoder_dot_apply {φ₁ φ₂ : FTy} (l : FVec Ideal S128x4096 φ₁) (r : FVec Ideal S4096x512 φ₂) (p : Fin 128) (q : Fin 512) :
    matmul dot_S128x4096_S4096x512_S128x512_1_0_0_1_n_n none l r (constant (F := Ideal) S128x512 .f32 0x00000000#32) (ix2 p q)
      = ∑ k : Fin 4096, l (ix2 p k) * r (ix2 k q) := by
  simp only [matmul]
  rw [Ideal.matmul_constant_zero_apply, ← Equiv.sum_comp (contrEquiv1 dot_S128x4096_S4096x512_S128x512_1_0_0_1_n_n 4096 rfl rfl).symm]
  refine Finset.sum_congr rfl fun k _ => ?_
  have hk := contrEquiv1_symm_val dot_S128x4096_S4096x512_S128x512_1_0_0_1_n_n 4096 rfl rfl k
  have el : dot_S128x4096_S4096x512_S128x512_1_0_0_1_n_n.lhsIdx (ix2 p q) ((contrEquiv1 dot_S128x4096_S4096x512_S128x512_1_0_0_1_n_n 4096 rfl rfl).symm k) = ix2 p k :=
    funext fun a => Fin.ext (by
      match a with
      | ⟨0, _⟩ =>
        show (dot_S128x4096_S4096x512_S128x512_1_0_0_1_n_n.lhsIdx (ix2 p q) _ 0).val = p.val
        unfold DotDims.lhsIdx
        rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
        rfl
      | ⟨1, _⟩ => exact (dot_S128x4096_S4096x512_S128x512_1_0_0_1_n_n.lhsIdx_val_of_single rfl _ _).trans hk)
  have er : dot_S128x4096_S4096x512_S128x512_1_0_0_1_n_n.rhsIdx (ix2 p q) ((contrEquiv1 dot_S128x4096_S4096x512_S128x512_1_0_0_1_n_n 4096 rfl rfl).symm k) = ix2 k q :=
    funext fun a => Fin.ext (by
      match a with
      | ⟨1, _⟩ =>
        show (dot_S128x4096_S4096x512_S128x512_1_0_0_1_n_n.rhsIdx (ix2 p q) _ 1).val = q.val
        unfold DotDims.rhsIdx
        rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
        rfl
      | ⟨0, _⟩ => exact (dot_S128x4096_S4096x512_S128x512_1_0_0_1_n_n.rhsIdx_val_of_single rfl _ _).trans hk)
  rw [el, er]

/-- The decoder's product at (p, q): the sum over the 512 code entries. -/
theorem decoder_dot_apply {φ₁ φ₂ : FTy} (l : FVec Ideal S128x512 φ₁) (r : FVec Ideal S512x4096 φ₂) (p : Fin 128) (q : Fin 4096) :
    matmul dot_S128x512_S512x4096_S128x4096_1_0_0_1_n_n none l r (constant (F := Ideal) S128x4096 .f32 0x00000000#32) (ix2 p q)
      = ∑ k : Fin 512, l (ix2 p k) * r (ix2 k q) := by
  simp only [matmul]
  rw [Ideal.matmul_constant_zero_apply, ← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 p q) ((contrEquiv1 dot_S128x512_S512x4096_S128x4096_1_0_0_1_n_n 512 rfl rfl).symm k) = ix2 p k :=
    funext fun a => Fin.ext (by
      match a with
      | ⟨0, _⟩ =>
        show (dot_S128x512_S512x4096_S128x4096_1_0_0_1_n_n.lhsIdx (ix2 p q) _ 0).val = p.val
        unfold DotDims.lhsIdx
        rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
        rfl
      | ⟨1, _⟩ => exact (dot_S128x512_S512x4096_S128x4096_1_0_0_1_n_n.lhsIdx_val_of_single rfl _ _).trans hk)
  have er : dot_S128x512_S512x4096_S128x4096_1_0_0_1_n_n.rhsIdx (ix2 p q) ((contrEquiv1 dot_S128x512_S512x4096_S128x4096_1_0_0_1_n_n 512 rfl rfl).symm k) = ix2 k q :=
    funext fun a => Fin.ext (by
      match a with
      | ⟨1, _⟩ =>
        show (dot_S128x512_S512x4096_S128x4096_1_0_0_1_n_n.rhsIdx (ix2 p q) _ 1).val = q.val
        unfold DotDims.rhsIdx
        rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
        rfl
      | ⟨0, _⟩ => exact (dot_S128x512_S512x4096_S128x4096_1_0_0_1_n_n.rhsIdx_val_of_single rfl _ _).trans hk)
  rw [el, er]

/-- The product with the cluster rows at (p, q): code row p against cluster ROW q, entry by entry. -/
theorem cluster_dot_apply {φ₁ φ₂ : FTy} (l : FVec Ideal S128x512 φ₁) (r : FVec Ideal S512x512 φ₂) (p : Fin 128) (q : Fin 512) :
    matmul dot_S128x512_S512x512_S128x512_1_1_0_0_n_n none l r (constant (F := Ideal) S128x512 .f32 0x00000000#32) (ix2 p q)
      = ∑ k : Fin 512, l (ix2 p k) * r (ix2 q k) := by
  simp only [matmul]
  rw [Ideal.matmul_constant_zero_apply, ← Equiv.sum_comp (contrEquiv1 dot_S128x512_S512x512_S128x512_1_1_0_0_n_n 512 rfl rfl).symm]
  refine Finset.sum_congr rfl fun k _ => ?_
  have hk := contrEquiv1_symm_val dot_S128x512_S512x512_S128x512_1_1_0_0_n_n 512 rfl rfl k
  have el : dot_S128x512_S512x512_S128x512_1_1_0_0_n_n.lhsIdx (ix2 p q) ((contrEquiv1 dot_S128x512_S512x512_S128x512_1_1_0_0_n_n 512 rfl rfl).symm k) = ix2 p k :=
    funext fun a => Fin.ext (by
      match a with
      | ⟨0, _⟩ =>
        show (dot_S128x512_S512x512_S128x512_1_1_0_0_n_n.lhsIdx (ix2 p q) _ 0).val = p.val
        unfold DotDims.lhsIdx
        rw [dif_neg (show ¬(0 : Fin S128x512.rank) ∈ dot_S128x512_S512x512_S128x512_1_1_0_0_n_n.lhsBatch by decide), dif_pos (show (0 : Fin S128x512.rank) ∈ dot_S128x512_S512x512_S128x512_1_1_0_0_n_n.lhsNonContracting by decide)]
        rfl
      | ⟨1, _⟩ => exact (dot_S128x512_S512x512_S128x512_1_1_0_0_n_n.lhsIdx_val_of_single rfl _ _).trans hk)
  have er : dot_S128x512_S512x512_S128x512_1_1_0_0_n_n.rhsIdx (ix2 p q) ((contrEquiv1 dot_S128x512_S512x512_S128x512_1_1_0_0_n_n 512 rfl rfl).symm k) = ix2 q k :=
    funext fun a => Fin.ext (by
      match a with
      | ⟨0, _⟩ =>
        show (dot_S128x512_S512x512_S128x512_1_1_0_0_n_n.rhsIdx (ix2 p q) _ 0).val = q.val
        unfold DotDims.rhsIdx
        rw [dif_neg (show ¬(0 : Fin S512x512.rank) ∈ dot_S128x512_S512x512_S128x512_1_1_0_0_n_n.rhsBatch by decide), dif_pos (show (0 : Fin S512x512.rank) ∈ dot_S128x512_S512x512_S128x512_1_1_0_0_n_n.rhsNonContracting by decide)]
        rfl
      | ⟨1, _⟩ => exact (dot_S128x512_S512x512_S128x512_1_1_0_0_n_n.rhsIdx_val_of_single rfl _ _).trans hk)
  rw [el, er]

end Cert.KernelDots

end
-- ==== Proof.KernelRows.lean ====
/-
  The body's values, read at one entry, as the row specification of the block's row.

  The body holds a block of 128 data rows and the whole weight arrays, the encoder weight and the cluster rows each as
  a "high" part and a "low" part. On real data the low parts vanish: the low part of a loaded array is handed in as an
  array of zeros, and the low part the body forms itself, `v − v`, is zero because `v` is real. So each three-pass
  product is the plain product, the code of block row `r` is `encode` of that row, its reconstruction is `decode` of
  the code, the clamped expansion ‖e‖² + ‖c‖² − 2 e·c is `sqDist`, and the weighting of a row of distances is
  `weighted` of that row.
-/
import proofs.«145956_j63814624084665_2_alg».proof.Proof.Gen.KernelIdeal.Skeleton
import proofs.«145956_j63814624084665_2_alg».proof.Proof.RowSpec
import proofs.«145956_j63814624084665_2_alg».proof.Proof.LibSplitSquares
import proofs.«145956_j63814624084665_2_alg».proof.Proof.LibColumn
import proofs.«145956_j63814624084665_2_alg».proof.Proof.KernelDots
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Idealize.ShloMosaic Idealize.ShloMosaic.ValueIdx Cert.KernelIdeal Cert.KernelIdeal.Gen Cert.RowSpec
open Cert.KernelDots Cert.LibSplitSquares Cert.LibColumn

/-- Every entry of the array is a real number. -/
def Real {s : Shape} (a : s.Idx → EReal) : Prop := ∀ i : s.Idx, ∃ r : ℝ, a i = (r : EReal)

variable (x : Vec Ideal S128x4096 .f32) (wh wl : Vec Ideal S4096x512 .bf16) (be : Vec Ideal S1x512 .f32)

/-- The code the body computes for block row `r`, as the specification's function of that row. -/
abbrev codeOf (r : Fin 128) : Fin 512 → EReal :=
  encode (fun i k => wh (ix2 i k)) (fun k => be (ix2 (0 : Fin 1) k)) (fun i => x (ix2 r i))

/-- THE CODE: the three-pass encoder product plus the bias, at (r, k), is `encode` of block row `r`. -/
theorem code_apply (hx : Real x) (hwl : ∀ i, wl i = 0) (r : Fin 128) (k : Fin 512) :
    k0_pay3 x wh wl be (ix2 r k) = codeOf x wh be r k := by
  unfold k0_pay3 codeOf encode
  dsimp only
  simp only [addf_apply]
  rw [encoder_dot_apply, encoder_dot_apply, encoder_dot_apply, broadcastTo_1b_ab_apply]
  simp only [shapeCast_self, truncf_apply, subf_apply]
  rw [three_pass (fun i => x (ix2 r i)) (fun i => wh (ix2 i k)) (fun i => wl (ix2 i k)) (fun i => hx _) (fun i => hwl _)]

/-- The code of a block row is a real number at every entry (a dot product of real rows plus a real bias). -/
theorem code_real (hx : Real x) (hwh : Real wh) (hbe : Real be) (r : Fin 128) (k : Fin 512) :
    ∃ y : ℝ, codeOf x wh be r k = (y : EReal) :=
  real_dot_add (fun i => x (ix2 r i)) (fun i => wh (ix2 i k)) (be (ix2 (0 : Fin 1) k)) (fun _ => hx _) (fun _ => hwh _) (hbe _)

/-- THE RECONSTRUCTION: the decoder product of the code plus the bias, at (r, n), is `decode` of the code of block row `r`. -/
theorem reconstruction_apply (wd : Vec Ideal S512x4096 .bf16) (bd : Vec Ideal S1x4096 .f32) (hx : Real x) (hwl : ∀ i, wl i = 0)
    (r : Fin 128) (n : Fin 4096) :
    k0_pay4 x wh wl be wd bd (ix2 r n)
      = decode (fun k n => wd (ix2 k n)) (fun n => bd (ix2 (0 : Fin 1) n)) (codeOf x wh be r) n := by
  unfold k0_pay4 decode
  dsimp only
  simp only [addf_apply]
  rw [decoder_dot_apply, broadcastTo_1b_ab_apply]
  simp only [shapeCast_self, truncf_apply, code_apply x wh wl be hx hwl]

/-! ## Row reductions and column broadcasts of a [128, 512] value -/

/-- The word of 2.0 is the number 2. -/
theorem two_word : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; norm_cast

/-- The sum along a row: entry `r` of the lane sum is the sum of row `r`. -/
theorem rowSum_apply (v : FVec Ideal S128x512 .f32) (r : Fin 128) :
    multiReduction .add [1] S128 v 0x00000000#32 reduces_S128x512_S128 (.inl rfl) rfl (ix1 r)
      = ∑ k : Fin 512, v (ix2 r k) := by
  refine (Ideal.multiReduction_add_single v 0x00000000#32 reduces_S128x512_S128 (.inl rfl) rfl (ix1 r)).trans ?_
  exact Finset.sum_congr rfl fun k _ => congrArg v (lift_cols reduces_S128x512_S128 r k)

/-- The minimum along a row, folded from the word of +∞: entry `r` is `rowMin` of row `r`. -/
theorem rowMin_apply (v : FVec Ideal S128x512 .f32) (r : Fin 128) :
    multiReduction .minimumf [1] S128 v 0x7F800000#32 reduces_S128x512_S128 (.inl rfl) rfl (ix1 r)
      = rowMin (fun k => v (ix2 r k)) := by
  refine (multiReduction_minimumf_eq_fold v 0x7F800000#32 reduces_S128x512_S128 (.inl rfl) rfl (ix1 r)).trans ?_
  refine (reduces_S128x512_S128.fold_filter_drop_single FloatOps.minimumf (FloatOps.ofBits .f32 0x7F800000#32) v (ix1 r)).trans ?_
  have hf : (v ∘ reduces_S128x512_S128.lift (ix1 r)) = fun k : Fin 512 => v (ix2 r k) :=
    funext fun k => congrArg v (lift_cols reduces_S128x512_S128 r k)
  exact congrArg (fun f => Finset.fold min topW f (Finset.univ : Finset (Fin 512))) hf

/-- A per-row value re-laid as a column and spread over the row's 512 entries reads, at (r, j), the value of row `r`. -/
theorem column_apply (u : FVec Ideal S128 .f32) (r : Fin 128) (j : Fin 512) :
    broadcastTo S128x512 (shapeCast S128x1 u shapeCasts_S128_S128x1) broadcasts_S128x1_S128x512 (ix2 r j) = u (ix1 r) := by
  rw [broadcastTo_a1_ab_apply, shapeCast_a_a1_apply]

/-! ## The distances -/

variable (ch cl : Vec Ideal S512x512 .bf16) (cs : Vec Ideal S1x512 .f32)

/-- THE CLAMPED EXPANSION of the squared distance, for any [128, 512] value `e` whose row `r` is real: with the cluster
    rows real, their low part zero and `cs` their squared norms, `max (‖e_r‖² + cs j − 2·(three-pass e_r·c_j)) 0` is
    `sqDist` of row `r` of `e`. -/
theorem distance_core (e : FVec Ideal S128x512 .f32) (r : Fin 128) (j : Fin 512)
    (he : ∀ k : Fin 512, ∃ y : ℝ, e (ix2 r k) = (y : EReal)) (hch : Real ch) (hcl : ∀ i, cl i = 0)
    (hcs : ∀ j : Fin 512, cs (ix2 (0 : Fin 1) j) = zeroW + ∑ k : Fin 512, ch (ix2 j k) * ch (ix2 j k)) :
    k0_pay1 e (shapeCast S512x512 ch shapeCasts_S512x512_S512x512) (shapeCast S512x512 cl shapeCasts_S512x512_S512x512)
        (truncf .bf16 e bitsLt_bf16_f32) (truncf .bf16 (subf e e) bitsLt_bf16_f32)
        (constant (F := Ideal) S128x512 .f32 0x00000000#32) cs (ix2 r j)
      = sqDist (fun j k => ch (ix2 j k)) (fun k => e (ix2 r k)) j := by
  unfold k0_pay1 sqDist
  dsimp only
  simp only [maximumf_apply, subf_apply, addf_apply, mulf_apply, broadcast_apply]
  rw [column_apply, rowSum_apply, broadcastTo_1b_ab_apply, cluster_dot_apply, cluster_dot_apply, cluster_dot_apply]
  simp only [shapeCast_self, truncf_apply, subf_apply, mulf_apply, hcs]
  show max ((_ + (Ideal.ofBits .f32 0x00000000#32 + _)) - Ideal.ofBits .f32 0x40000000#32 * _) (Ideal.ofBits .f32 0x00000000#32)
      = Ideal.ofBits .f32 0x00000000#32 + _
  rw [two_word, Ideal.ofBits_zero_f32]
  exact clamped_expansion (fun k => e (ix2 r k)) (fun k => ch (ix2 j k)) (fun k => cl (ix2 j k)) he (fun k => hch _) (fun k => hcl _)

/-- THE DISTANCES the body stores, at (r, j): `sqDist` of the code of block row `r` to cluster row `j`. -/
theorem distance_apply (hx : Real x) (hwh : Real wh) (hwl : ∀ i, wl i = 0) (hbe : Real be) (hch : Real ch) (hcl : ∀ i, cl i = 0)
    (hcs : ∀ j : Fin 512, cs (ix2 (0 : Fin 1) j) = zeroW + ∑ k : Fin 512, ch (ix2 j k) * ch (ix2 j k))
    (r : Fin 128) (j : Fin 512) :
    k0_pay1 (k0_pay3 x wh wl be) (k0_pay5 ch) (k0_pay6 cl) (k0_pay7 x wh wl be) (k0_pay8 x wh wl be)
        (constant (F := Ideal) S128x512 .f32 0x00000000#32) cs (ix2 r j)
      = sqDist (fun j k => ch (ix2 j k)) (codeOf x wh be r) j := by
  have he : ∀ k : Fin 512, ∃ y : ℝ, k0_pay3 x wh wl be (ix2 r k) = (y : EReal) := fun k => by
    rw [code_apply x wh wl be hx hwl]; exact code_real x wh be hx hwh hbe r k
  refine (distance_core ch cl cs (k0_pay3 x wh wl be) r j he hch hcl hcs).trans ?_
  unfold sqDist
  simp only [code_apply x wh wl be hx hwl]

/-! ## The weighting -/

/-- The exponential of a vector, read at an index. -/
theorem exp_apply {s : Shape} {φ : FTy} (v : FVec Ideal s φ) (i : s.Idx) : exp v i = Ideal.exp (v i) := rfl

/-- THE WEIGHTING: whatever the operands, what the body stores as weighted distances at (r, j) is `weighted` of row `r`
    of what it stores as distances. -/
theorem weighted_apply (e : FVec Ideal S128x512 .f32) (c c' : FVec Ideal S512x512 .bf16) (eh el : FVec Ideal S128x512 .bf16)
    (z : FVec Ideal S128x512 .f32) (s : Vec Ideal S1x512 .f32) (r : Fin 128) (j : Fin 512) :
    k0_pay2 e c c' eh el z s (ix2 r j) = weighted (fun l => k0_pay1 e c c' eh el z s (ix2 r l)) j := by
  unfold k0_pay2 weighted rawWeight
  dsimp only
  generalize k0_pay1 e c c' eh el z s = P
  simp only [mulf_apply, divf_apply, subf_apply, exp_apply, broadcast_apply, column_apply]
  rw [rowSum_apply, rowMin_apply]
  simp only [mulf_apply, subf_apply, exp_apply, broadcast_apply, column_apply]
  rw [rowMin_apply, show zeroW = 0 from Ideal.ofBits_zero_f32, zero_add]
  rfl

end Cert.KernelRows

end
-- ==== Proof.KernelArrays.lean ====
/-
  From blocks to arrays: the three result arrays of the kernel as functions of the argument arrays.

  Grid point `t` (of 8) works on data rows 128·t … 128·t + 127: the data window's block at `t` is those rows, every other
  input window's block is its whole array, and each of the three output windows writes back rows 128·t … 128·t + 127 of
  its array. The arrays the body reads besides the data are what the host operations before the launch left: the
  encoder weight, the decoder weight and the cluster rows unchanged in value ("high" parts), their "low" parts
  `a − a`, which are zero on real data, the two biases re-laid as one row each, and the squared norms of the cluster
  rows. So what point `t` writes back is block `t` of one whole-array function of the arguments, the eight blocks cover
  the arrays, and after the run each result array IS that function.
-/
import proofs.«145956_j63814624084665_2_alg».proof.Proof.Gen.KernelIdeal.Frame
import proofs.«145956_j63814624084665_2_alg».proof.Proof.KernelRows
import proofs.«145956_j63814624084665_2_alg».proof.Proof.RowSpec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelArrays

open Cert.KernelIdeal Cert.KernelIdeal.Gen Idealize.ShloMosaic.ValueIdx Cert.RowSpec Cert.KernelRows

variable (m : (ℓ : Loc nD τ sig) → Buf (Elt Ideal) ℓ) (ρ : Dev nD → PrngReg)

/-! ## The argument arrays on one core, as functions of an index -/

/-- The data, [1024, 4096]. -/
abbrev dataArr (c : Dev nD) : S1024x4096.Idx → EReal := m ((c : Thread nD τ).loc main_arg0)
/-- The cluster rows, [512, 512]. -/
abbrev clusterArr (c : Dev nD) : S512x512.Idx → EReal := m ((c : Thread nD τ).loc main_arg1)
/-- The encoder weight, [4096, 512]. -/
abbrev encWArr (c : Dev nD) : S4096x512.Idx → EReal := m ((c : Thread nD τ).loc main_arg2)
/-- The encoder bias, [512]. -/
abbrev encBArr (c : Dev nD) : S512.Idx → EReal := m ((c : Thread nD τ).loc main_arg3)
/-- The decoder weight, [512, 4096]. -/
abbrev decWArr (c : Dev nD) : S512x4096.Idx → EReal := m ((c : Thread nD τ).loc main_arg4)
/-- The decoder bias, [4096]. -/
abbrev decBArr (c : Dev nD) : S4096.Idx → EReal := m ((c : Thread nD τ).loc main_arg5)

/-! ## What the host operations before the launch left in the staged arrays -/

/-- The encoder weight's high part is the weight itself. -/
theorem staged_encHi (c : Dev nD) : (V m c main_v2 : S4096x512.Idx → EReal) = encWArr m c := by
  dsimp only [Gen.V, Gen.hostOps0]; after_results; rfl

/-- The encoder weight's low part is `w − w`, entry by entry. -/
theorem staged_encLo (c : Dev nD) (i : S4096x512.Idx) :
    (V m c main_v5 : S4096x512.Idx → EReal) i = encWArr m c i - encWArr m c i := by
  have e : (V m c main_v5 : S4096x512.Idx → EReal) = (fun i => encWArr m c i - encWArr m c i) := by
    dsimp only [Gen.V, Gen.hostOps0]; after_results; rfl
  rw [e]

/-- The cluster rows' high part is the cluster array itself. -/
theorem staged_cluHi (c : Dev nD) : (V m c main_v6 : S512x512.Idx → EReal) = clusterArr m c := by
  dsimp only [Gen.V, Gen.hostOps0]; after_results; rfl

/-- The cluster rows' low part is `c − c`, entry by entry. -/
theorem staged_cluLo (c : Dev nD) (i : S512x512.Idx) :
    (V m c main_v9 : S512x512.Idx → EReal) i = clusterArr m c i - clusterArr m c i := by
  have e : (V m c main_v9 : S512x512.Idx → EReal) = (fun i => clusterArr m c i - clusterArr m c i) := by
    dsimp only [Gen.V, Gen.hostOps0]; after_results; rfl
  rw [e]

/-- The decoder weight is staged unchanged in value. -/
theorem staged_decW (c : Dev nD) : (V m c main_v10 : S512x4096.Idx → EReal) = decWArr m c := by
  dsimp only [Gen.V, Gen.hostOps0]; after_results; rfl

/-- The encoder bias re-laid as one row: entry (0, k) is the bias at k. -/
theorem staged_encB (c : Dev nD) (k : Fin 512) :
    (V m c main_v0 : S1x512.Idx → EReal) (ix2 (0 : Fin 1) k) = encBArr m c (ix1 k) := by
  have e : (V m c main_v0 : S1x512.Idx → EReal) = shapeCast S1x512 (encBArr m c) shapeCasts_S512_S1x512 := by
    dsimp only [Gen.V, Gen.hostOps0]; after_results; rfl
  rw [e, shapeCast_a_1a_apply]

/-- The decoder bias re-laid as one row: entry (0, n) is the bias at n. -/
theorem staged_decB (c : Dev nD) (n : Fin 4096) :
    (V m c main_v1 : S1x4096.Idx → EReal) (ix2 (0 : Fin 1) n) = decBArr m c (ix1 n) := by
  have e : (V m c main_v1 : S1x4096.Idx → EReal) = shapeCast S1x4096 (decBArr m c) shapeCasts_S4096_S1x4096 := by
    dsimp only [Gen.V, Gen.hostOps0]; after_results; rfl
  rw [e, shapeCast_a_1a_apply]

/-- The squared norms of the cluster rows, as one row: entry (0, j) is `0 + Σ_k c j k · c j k`. -/
theorem staged_cluSq (c : Dev nD) (j : Fin 512) :
    (V m c main_v13 : S1x512.Idx → EReal) (ix2 (0 : Fin 1) j)
      = zeroW + ∑ k : Fin 512, clusterArr m c (ix2 j k) * clusterArr m c (ix2 j k) := by
  have e : (V m c main_v13 : S1x512.Idx → EReal)
      = shapeCast S1x512 (Host.reduceAdd (F := Ideal) (mulf (clusterArr m c) (clusterArr m c)) (constant (F := Ideal) S_ .f32 0x00000000#32)
          reducesTo_S512x512_S512_d1 h_S_) shapeCasts_S512_S1x512 := by
    dsimp only [Gen.V, Gen.hostOps0]; after_results; rfl
  have hred : S512x512.Reduces [1] S512 := by decide
  rw [e, shapeCast_a_1a_apply]
  simp only [Host.reduceAdd, Ideal.hostReduceAdd_def]
  rw [Ideal.hostReduceAdd_single reducesTo_S512x512_S512_d1 hred]
  refine congrArg (zeroW + ·) (Finset.sum_congr rfl fun k _ => ?_)
  have hl : hred.lift (ix1 j) k = ix2 j (⟨k.val, k.isLt⟩ : Fin 512) := by
    funext a; apply Fin.ext; fin_cases a <;> rfl
  rw [hl]; rfl

/-! ## The windows' blocks -/

theorem hz : (![0, 0] : Fin 2 → Nat) = fun _ => 0 := funext fun a => by fin_cases a <;> rfl

/-- The grid has eight points. -/
theorem grid_eight : cfg0.N = 8 := N_0

/-- The printed index maps, decided over the eight grid points: the data window and the three output windows sit at
    block row `t`, every other window at block (0, 0). -/
theorem index_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0) :=
  (by decide +kernel : ∀ t : Fin grid0.N, _)

/-- THE DATA BLOCK at point `t` is rows 128·t … 128·t + 127 of the data. -/
theorem data_block (c : Dev nD) (t : Fin cfg0.N) (r : Fin 128) (i : Fin 4096) (h : 128 * t.val + r.val < 1024) :
    (iblk m c 0 t : Vec Ideal S128x4096 .f32) (ix2 r i) = dataArr m c (ix2 (⟨128 * t.val + r.val, h⟩ : Fin 1024) i) := by
  obtain ⟨⟨h0, h1⟩, -⟩ := index_facts t
  unfold iblk
  rw [View.read_apply]
  show V m c main_arg0 _ = dataArr m c _
  rw [V_main_arg0]
  congr 1
  funext a; apply Fin.ext
  match a with
  | ⟨0, _⟩ => show win0_0.index t 0 * 128 + 1 * r.val = 128 * t.val + r.val; rw [h0]; omega
  | ⟨1, _⟩ => show win0_0.index t 1 * 4096 + 1 * i.val = i.val; rw [h1]; omega

/-- Window 1's block at every point is its whole array. -/
theorem whole_block1 (c : Dev nD) (t : Fin cfg0.N) :
    (iblk m c 1 t : Vec Ideal S4096x512 .bf16) = (V m c main_v2 : S4096x512.Idx → EReal) := by
  obtain ⟨-, ⟨h0, h1⟩, -, -, -, -, -, -, -, -, -, -⟩ := index_facts t
  funext y
  unfold iblk
  rw [View.read_apply]
  show V m c main_v2 _ = V m c main_v2 y
  congr 1
  funext a; apply Fin.ext
  match a with
  | ⟨0, _⟩ => show win0_1.index t 0 * 4096 + 1 * (y 0).val = (y 0).val; rw [h0]; omega
  | ⟨1, _⟩ => show win0_1.index t 1 * 512 + 1 * (y 1).val = (y 1).val; rw [h1]; omega

/-- Window 2's block at every point is its whole array. -/
theorem whole_block2 (c : Dev nD) (t : Fin cfg0.N) :
    (iblk m c 2 t : Vec Ideal S4096x512 .bf16) = (V m c main_v5 : S4096x512.Idx → EReal) := by
  obtain ⟨-, -, ⟨h0, h1⟩, -, -, -, -, -, -, -, -, -⟩ := index_facts t
  funext y
  unfold iblk
  rw [View.read_apply]
  show V m c main_v5 _ = V m c main_v5 y
  congr 1
  funext a; apply Fin.ext
  match a with
  | ⟨0, _⟩ => show win0_2.index t 0 * 4096 + 1 * (y 0).val = (y 0).val; rw [h0]; omega
  | ⟨1, _⟩ => show win0_2.index t 1 * 512 + 1 * (y 1).val = (y 1).val; rw [h1]; omega

/-- Window 3's block at every point is its whole array. -/
theorem whole_block3 (c : Dev nD) (t : Fin cfg0.N) :
    (iblk m c 3 t : Vec Ideal S1x512 .f32) = (V m c main_v0 : S1x512.Idx → EReal) := by
  obtain ⟨-, -, -, ⟨h0, h1⟩, -, -, -, -, -, -, -, -⟩ := index_facts t
  funext y
  unfold iblk
  rw [View.read_apply]
  show V m c main_v0 _ = V m c main_v0 y
  congr 1
  funext a; apply Fin.ext
  match a with
  | ⟨0, _⟩ => show win0_3.index t 0 * 1 + 1 * (y 0).val = (y 0).val; rw [h0]; omega
  | ⟨1, _⟩ => show win0_3.index t 1 * 512 + 1 * (y 1).val = (y 1).val; rw [h1]; omega

/-- Window 4's block at every point is its whole array. -/
theorem whole_block4 (c : Dev nD) (t : Fin cfg0.N) :
    (iblk m c 4 t : Vec Ideal S512x4096 .bf16) = (V m c main_v10 : S512x4096.Idx → EReal) := by
  obtain ⟨-, -, -, -, ⟨h0, h1⟩, -, -, -, -, -, -, -⟩ := index_facts t
  funext y
  unfold iblk
  rw [View.read_apply]
  show V m c main_v10 _ = V m c main_v10 y
  congr 1
  funext a; apply Fin.ext
  match a with
  | ⟨0, _⟩ => show win0_4.index t 0 * 512 + 1 * (y 0).val = (y 0).val; rw [h0]; omega
  | ⟨1, _⟩ => show win0_4.index t 1 * 4096 + 1 * (y 1).val = (y 1).val; rw [h1]; omega

/-- Window 5's block at every point is its whole array. -/
theorem whole_block5 (c : Dev nD) (t : Fin cfg0.N) :
    (iblk m c 5 t : Vec Ideal S1x4096 .f32) = (V m c main_v1 : S1x4096.Idx → EReal) := by
  obtain ⟨-, -, -, -, -, ⟨h0, h1⟩, -, -, -, -, -, -⟩ := index_facts t
  funext y
  unfold iblk
  rw [View.read_apply]
  show V m c main_v1 _ = V m c main_v1 y
  congr 1
  funext a; apply Fin.ext
  match a with
  | ⟨0, _⟩ => show win0_5.index t 0 * 1 + 1 * (y 0).val = (y 0).val; rw [h0]; omega
  | ⟨1, _⟩ => show win0_5.index t 1 * 4096 + 1 * (y 1).val = (y 1).val; rw [h1]; omega

/-- Window 6's block at every point is its whole array. -/
theorem whole_block6 (c : Dev nD) (t : Fin cfg0.N) :
    (iblk m c 6 t : Vec Ideal S512x512 .bf16) = (V m c main_v6 : S512x512.Idx → EReal) := by
  obtain ⟨-, -, -, -, -, -, ⟨h0, h1⟩, -, -, -, -, -⟩ := index_facts t
  funext y
  unfold iblk
  rw [View.read_apply]
  show V m c main_v6 _ = V m c main_v6 y
  congr 1
  funext a; apply Fin.ext
  match a with
  | ⟨0, _⟩ => show win0_6.index t 0 * 512 + 1 * (y 0).val = (y 0).val; rw [h0]; omega
  | ⟨1, _⟩ => show win0_6.index t 1 * 512 + 1 * (y 1).val = (y 1).val; rw [h1]; omega

/-- Window 7's block at every point is its whole array. -/
theorem whole_block7 (c : Dev nD) (t : Fin cfg0.N) :
    (iblk m c 7 t : Vec Ideal S512x512 .bf16) = (V m c main_v9 : S512x512.Idx → EReal) := by
  obtain ⟨-, -, -, -, -, -, -, ⟨h0, h1⟩, -, -, -, -⟩ := index_facts t
  funext y
  unfold iblk
  rw [View.read_apply]
  show V m c main_v9 _ = V m c main_v9 y
  congr 1
  funext a; apply Fin.ext
  match a with
  | ⟨0, _⟩ => show win0_7.index t 0 * 512 + 1 * (y 0).val = (y 0).val; rw [h0]; omega
  | ⟨1, _⟩ => show win0_7.index t 1 * 512 + 1 * (y 1).val = (y 1).val; rw [h1]; omega

/-- Window 8's block at every point is its whole array. -/
theorem whole_block8 (c : Dev nD) (t : Fin cfg0.N) :
    (iblk m c 8 t : Vec Ideal S1x512 .f32) = (V m c main_v13 : S1x512.Idx → EReal) := by
  obtain ⟨-, -, -, -, -, -, -, -, ⟨h0, h1⟩, -, -, -⟩ := index_facts t
  funext y
  unfold iblk
  rw [View.read_apply]
  show V m c main_v13 _ = V m c main_v13 y
  congr 1
  funext a; apply Fin.ext
  match a with
  | ⟨0, _⟩ => show win0_8.index t 0 * 1 + 1 * (y 0).val = (y 0).val; rw [h0]; omega
  | ⟨1, _⟩ => show win0_8.index t 1 * 512 + 1 * (y 1).val = (y 1).val; rw [h1]; omega

/-! ## The operands of the body at a point, on real data -/

/-- Every entry of each of the six argument arrays is a real number. -/
structure RealArgs (c : Dev nD) : Prop where
  data : Real (dataArr m c)
  cluster : Real (clusterArr m c)
  encW : Real (encWArr m c)
  encB : Real (encBArr m c)
  decW : Real (decWArr m c)
  decB : Real (decBArr m c)

/-- Row `r` of point `t`'s block is a row of the data: 128·t + r < 1024. -/
theorem row_in_range (t : Fin cfg0.N) (r : Fin 128) : 128 * t.val + r.val < 1024 := by
  have h1 := t.isLt
  have hN : cfg0.N = 8 := grid_eight
  have h2 := r.isLt
  omega

variable {m}

theorem real_dataBlock {c : Dev nD} (h : RealArgs m c) (t : Fin cfg0.N) : Real (iblk m c 0 t : Vec Ideal S128x4096 .f32) := fun y => by
  obtain ⟨r, i, rfl⟩ : ∃ (r : Fin 128) (i : Fin 4096), y = ix2 r i := ⟨y 0, y 1, eq_ix2 y⟩
  rw [data_block m c t r i (row_in_range t r)]; exact h.data _

theorem encHi_block (c : Dev nD) (t : Fin cfg0.N) : (iblk m c 1 t : Vec Ideal S4096x512 .bf16) = encWArr m c :=
  (whole_block1 m c t).trans (staged_encHi m c)

theorem encLo_block {c : Dev nD} (h : RealArgs m c) (t : Fin cfg0.N) (i : S4096x512.Idx) : (iblk m c 2 t : Vec Ideal S4096x512 .bf16) i = (0 : EReal) := by
  rw [whole_block2, staged_encLo]; exact Cert.LibSplitSquares.sub_self_of_real (h.encW i)

theorem encB_block (c : Dev nD) (t : Fin cfg0.N) (k : Fin 512) :
    (iblk m c 3 t : Vec Ideal S1x512 .f32) (ix2 (0 : Fin 1) k) = encBArr m c (ix1 k) := by
  rw [whole_block3, staged_encB]

theorem real_encBBlock {c : Dev nD} (h : RealArgs m c) (t : Fin cfg0.N) : Real (iblk m c 3 t : Vec Ideal S1x512 .f32) := fun y => by
  obtain ⟨u, k, rfl⟩ : ∃ (u : Fin 1) (k : Fin 512), y = ix2 u k := ⟨y 0, y 1, eq_ix2 y⟩
  obtain rfl : u = 0 := Subsingleton.elim _ _
  rw [encB_block]; exact h.encB _

theorem decW_block (c : Dev nD) (t : Fin cfg0.N) : (iblk m c 4 t : Vec Ideal S512x4096 .bf16) = decWArr m c :=
  (whole_block4 m c t).trans (staged_decW m c)

theorem decB_block (c : Dev nD) (t : Fin cfg0.N) (n : Fin 4096) :
    (iblk m c 5 t : Vec Ideal S1x4096 .f32) (ix2 (0 : Fin 1) n) = decBArr m c (ix1 n) := by
  rw [whole_block5, staged_decB]

theorem cluHi_block (c : Dev nD) (t : Fin cfg0.N) : (iblk m c 6 t : Vec Ideal S512x512 .bf16) = clusterArr m c :=
  (whole_block6 m c t).trans (staged_cluHi m c)

theorem cluLo_block {c : Dev nD} (h : RealArgs m c) (t : Fin cfg0.N) (i : S512x512.Idx) : (iblk m c 7 t : Vec Ideal S512x512 .bf16) i = (0 : EReal) := by
  rw [whole_block7, staged_cluLo]; exact Cert.LibSplitSquares.sub_self_of_real (h.cluster i)

theorem cluSq_block (c : Dev nD) (t : Fin cfg0.N) (j : Fin 512) :
    (iblk m c 8 t : Vec Ideal S1x512 .f32) (ix2 (0 : Fin 1) j)
      = zeroW + ∑ k : Fin 512, clusterArr m c (ix2 j k) * clusterArr m c (ix2 j k) := by
  rw [whole_block8, staged_cluSq]

variable (m)

/-! ## The three result arrays as functions of the argument arrays -/

/-- The code of data row `p`. -/
abbrev codeRow (c : Dev nD) (p : Fin 1024) : Fin 512 → EReal :=
  encode (fun i k => encWArr m c (ix2 i k)) (fun k => encBArr m c (ix1 k)) (fun i => dataArr m c (ix2 p i))

/-- Row `p` of the distances. -/
abbrev distRow (c : Dev nD) (p : Fin 1024) : Fin 512 → EReal :=
  sqDist (fun j k => clusterArr m c (ix2 j k)) (codeRow m c p)

/-- Row `p` of the reconstruction. -/
abbrev reconRow (c : Dev nD) (p : Fin 1024) : Fin 4096 → EReal :=
  decode (fun k n => decWArr m c (ix2 k n)) (fun n => decBArr m c (ix1 n)) (codeRow m c p)

/-- The weighted distances, [1024, 512]. -/
def weightedArr (c : Dev nD) : S1024x512.Idx → EReal :=
  fun i => weighted (distRow m c ⟨(i 0).val, idx2_lt0 i⟩) ⟨(i 1).val, idx2_lt1 i⟩

/-- The distances, [1024, 512]. -/
def distArr (c : Dev nD) : S1024x512.Idx → EReal :=
  fun i => distRow m c ⟨(i 0).val, idx2_lt0 i⟩ ⟨(i 1).val, idx2_lt1 i⟩

/-- The reconstruction, [1024, 4096]. -/
def reconArr (c : Dev nD) : S1024x4096.Idx → EReal :=
  fun i => reconRow m c ⟨(i 0).val, idx2_lt0 i⟩ ⟨(i 1).val, idx2_lt1 i⟩

/-! ## What the body computes at a point -/

variable {m}

/-- The code of block row `r` at point `t` is the code of data row 128·t + r. -/
theorem code_at_point {c : Dev nD} (t : Fin cfg0.N) (r : Fin 128) :
    codeOf (iblk m c 0 t) (iblk m c 1 t) (iblk m c 3 t) r = codeRow m c ⟨128 * t.val + r.val, row_in_range t r⟩ := by
  unfold codeOf codeRow
  rw [encHi_block]
  simp only [data_block m c t r _ (row_in_range t r), encB_block]

/-- Point `t` leaves, at (r, n) of the reconstruction's buffer, row 128·t + r of the reconstruction at n. -/
theorem point_reconstruction {c : Dev nD} (h : RealArgs m c) (t : Fin cfg0.N) (r : Fin 128) (n : Fin 4096) :
    out0_11 (iblk m c 0 t) (iblk m c 1 t) (iblk m c 2 t) (iblk m c 3 t) (iblk m c 4 t) (iblk m c 5 t) (iblk m c 6 t) (iblk m c 7 t) (iblk m c 8 t) (ix2 r n)
      = reconRow m c ⟨128 * t.val + r.val, row_in_range t r⟩ n := by
  unfold out0_11
  rw [View.canon_unit_zero hz]
  simp only [View.ld_unit_zero (S := S128x4096) hz, View.ld_unit_zero (S := S4096x512) hz, View.ld_unit_zero (S := S1x512) hz,
    View.ld_unit_zero (S := S512x4096) hz, View.ld_unit_zero (S := S1x4096) hz]
  refine (reconstruction_apply (iblk m c 0 t) (iblk m c 1 t) (iblk m c 2 t) (iblk m c 3 t) (iblk m c 4 t) (iblk m c 5 t)
    (real_dataBlock h t) (encLo_block h t) r n).trans ?_
  unfold reconRow
  rw [code_at_point t r, decW_block]
  simp only [decB_block]

theorem real_encWBlock {c : Dev nD} (h : RealArgs m c) (t : Fin cfg0.N) : Real (iblk m c 1 t : Vec Ideal S4096x512 .bf16) := fun i => by
  rw [encHi_block]; exact h.encW i

theorem real_cluBlock {c : Dev nD} (h : RealArgs m c) (t : Fin cfg0.N) : Real (iblk m c 6 t : Vec Ideal S512x512 .bf16) := fun i => by
  rw [cluHi_block]; exact h.cluster i

/-- The clamped expansion the body computes for block row `r` at point `t` is row 128·t + r of the distances. -/
theorem dist_at_point {c : Dev nD} (h : RealArgs m c) (t : Fin cfg0.N) (r : Fin 128) (j : Fin 512) :
    k0_pay1 (k0_pay3 (iblk m c 0 t) (iblk m c 1 t) (iblk m c 2 t) (iblk m c 3 t)) (k0_pay5 (iblk m c 6 t)) (k0_pay6 (iblk m c 7 t))
        (k0_pay7 (iblk m c 0 t) (iblk m c 1 t) (iblk m c 2 t) (iblk m c 3 t)) (k0_pay8 (iblk m c 0 t) (iblk m c 1 t) (iblk m c 2 t) (iblk m c 3 t))
        (constant (F := Ideal) S128x512 .f32 0x00000000#32) (iblk m c 8 t) (ix2 r j)
      = distRow m c ⟨128 * t.val + r.val, row_in_range t r⟩ j := by
  refine (distance_apply (iblk m c 0 t) (iblk m c 1 t) (iblk m c 2 t) (iblk m c 3 t) (iblk m c 6 t) (iblk m c 7 t) (iblk m c 8 t)
    (real_dataBlock h t) (real_encWBlock h t) (encLo_block h t) (real_encBBlock h t) (real_cluBlock h t) (cluLo_block h t)
    (fun j => by rw [cluHi_block]; exact cluSq_block c t j) r j).trans ?_
  unfold distRow
  rw [code_at_point t r, cluHi_block]

/-- Point `t` leaves, at (r, j) of the distances' buffer, row 128·t + r of the distances at j. -/
theorem point_distances {c : Dev nD} (h : RealArgs m c) (t : Fin cfg0.N) (r : Fin 128) (j : Fin 512) :
    out0_10 (iblk m c 0 t) (iblk m c 1 t) (iblk m c 2 t) (iblk m c 3 t) (iblk m c 4 t) (iblk m c 5 t) (iblk m c 6 t) (iblk m c 7 t) (iblk m c 8 t) (ix2 r j)
      = distRow m c ⟨128 * t.val + r.val, row_in_range t r⟩ j := by
  unfold out0_10
  rw [View.canon_unit_zero hz]
  simp only [View.ld_unit_zero (S := S128x4096) hz, View.ld_unit_zero (S := S4096x512) hz, View.ld_unit_zero (S := S1x512) hz,
    View.ld_unit_zero (S := S512x512) hz]
  exact dist_at_point h t r j

/-- Point `t` leaves, at (r, j) of the weighted distances' buffer, the weighting of row 128·t + r of the distances at j. -/
theorem point_weighted {c : Dev nD} (h : RealArgs m c) (t : Fin cfg0.N) (r : Fin 128) (j : Fin 512) :
    out0_9 (iblk m c 0 t) (iblk m c 1 t) (iblk m c 2 t) (iblk m c 3 t) (iblk m c 4 t) (iblk m c 5 t) (iblk m c 6 t) (iblk m c 7 t) (iblk m c 8 t) (ix2 r j)
      = weighted (distRow m c ⟨128 * t.val + r.val, row_in_range t r⟩) j := by
  unfold out0_9
  rw [View.canon_unit_zero hz]
  simp only [View.ld_unit_zero (S := S128x4096) hz, View.ld_unit_zero (S := S4096x512) hz, View.ld_unit_zero (S := S1x512) hz,
    View.ld_unit_zero (S := S512x512) hz]
  refine (weighted_apply _ _ _ _ _ _ _ r j).trans ?_
  exact congrArg (fun d => weighted d j) (funext fun l => dist_at_point h t r l)

/-! ## From blocks to arrays -/

variable (m)

/-- The weighted distances array at an index whose coordinates are (p, q) is row `p` of the weighted distances at `q`. -/
theorem weightedArr_apply (c : Dev nD) (i : S1024x512.Idx) (p : Fin 1024) (q : Fin 512) (hp : (i 0).val = p.val) (hq : (i 1).val = q.val) :
    weightedArr m c i = weighted (distRow m c p) q := by
  unfold weightedArr
  rw [show (⟨(i 0).val, idx2_lt0 i⟩ : Fin 1024) = p from Fin.ext hp, show (⟨(i 1).val, idx2_lt1 i⟩ : Fin 512) = q from Fin.ext hq]

/-- WHAT POINT `t` WRITES BACK to the weighted distances is block `t` (rows 128·t … 128·t + 127) of the weighted distances array. -/
theorem flushed_weightedArr {c : Dev nD} (h : RealArgs m c) (t : Fin cfg0.N) :
    (dats m 0 c).flushed 9 t = ((cfg0.win 9).blk t).view.read (Elt Ideal) (weightedArr m c) := by
  obtain ⟨-, -, -, -, -, -, -, -, -, ⟨h0, h1⟩, -, -⟩ := index_facts t
  show (cfg0.win 9).cut (grid0.coords t) ((dats m 0 c).after 9 t) = _
  rw [after0_9]
  funext y
  obtain ⟨r, q, rfl⟩ : ∃ (r : Fin 128) (q : Fin 512), y = ix2 r q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 r q) = weightedArr m c (((cfg0.win 9).blk t).view.emb (ix2 r q))
  rw [point_weighted h t r q]
  refine (weightedArr_apply m c _ ⟨128 * t.val + r.val, row_in_range t r⟩ q ?_ ?_).symm
  · show win0_9.index t 0 * 128 + 1 * r.val = 128 * t.val + r.val
    rw [h0]; omega
  · show win0_9.index t 1 * 512 + 1 * q.val = q.val
    rw [h1]; omega

/-- An index of the weighted distances array is in point `t`'s block iff each coordinate is in the block's range on its axis. -/
theorem mem_block_weightedArr (t : Fin cfg0.N) (i : S1024x512.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v14_0).slice (win0_9.rect t)).set ↔ _
  rw [View.set_slice_whole, Rect.mem_set_unit]
  exact Iff.rfl

/-- THE EIGHT BLOCKS COVER the weighted distances array: row `p` lies in the block of point `p / 128`. -/
theorem cover_weightedArr (i : S1024x512.Idx) :
    ∃ t : Fin cfg0.N, (cfg0.win 9).flush t = true ∧ i ∈ ((cfg0.win 9).blk t).view.set := by
  have hi0 : (i 0).val < 1024 := idx2_lt0 i
  have hi1 : (i 1).val < 512 := idx2_lt1 i
  have hN : cfg0.N = 8 := grid_eight
  obtain ⟨t, ht⟩ : ∃ t : Fin cfg0.N, t.val = (i 0).val / 128 := ⟨⟨(i 0).val / 128, by rw [hN]; omega⟩, rfl⟩
  obtain ⟨-, -, -, -, -, -, -, -, -, ⟨h0, h1⟩, -, -⟩ := index_facts t
  refine ⟨t, flush0_9 t, ?_⟩
  rw [mem_block_weightedArr]
  intro a
  match a with
  | ⟨0, _⟩ =>
    show win0_9.index t 0 * 128 ≤ (i 0).val ∧ (i 0).val < win0_9.index t 0 * 128 + 128
    rw [h0, ht]; omega
  | ⟨1, _⟩ =>
    show win0_9.index t 1 * 512 ≤ (i 1).val ∧ (i 1).val < win0_9.index t 1 * 512 + 512
    rw [h1]; omega

/-- THE WEIGHTED DISTANCES ARRAY after the run is `weightedArr`. -/
theorem final_weightedArr {c : Dev nD} (h : RealArgs m c) : (dats m 0 c).arrAt 9 cfg0.N = weightedArr m c :=
  (dats m 0 c).arrAt_eq_of_cover 9 (weightedArr m c) (fun t _ => flushed_weightedArr m h t) cover_weightedArr

/-- The distances array at an index whose coordinates are (p, q) is row `p` of the distances at `q`. -/
theorem distArr_apply (c : Dev nD) (i : S1024x512.Idx) (p : Fin 1024) (q : Fin 512) (hp : (i 0).val = p.val) (hq : (i 1).val = q.val) :
    distArr m c i = distRow m c p q := by
  unfold distArr
  rw [show (⟨(i 0).val, idx2_lt0 i⟩ : Fin 1024) = p from Fin.ext hp, show (⟨(i 1).val, idx2_lt1 i⟩ : Fin 512) = q from Fin.ext hq]

/-- WHAT POINT `t` WRITES BACK to the distances is block `t` (rows 128·t … 128·t + 127) of the distances array. -/
theorem flushed_distArr {c : Dev nD} (h : RealArgs m c) (t : Fin cfg0.N) :
    (dats m 0 c).flushed 10 t = ((cfg0.win 10).blk t).view.read (Elt Ideal) (distArr m c) := by
  obtain ⟨-, -, -, -, -, -, -, -, -, -, ⟨h0, h1⟩, -⟩ := index_facts t
  show (cfg0.win 10).cut (grid0.coords t) ((dats m 0 c).after 10 t) = _
  rw [after0_10]
  funext y
  obtain ⟨r, q, rfl⟩ : ∃ (r : Fin 128) (q : Fin 512), y = ix2 r q := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (ix2 r q) = distArr m c (((cfg0.win 10).blk t).view.emb (ix2 r q))
  rw [point_distances h t r q]
  refine (distArr_apply m c _ ⟨128 * t.val + r.val, row_in_range t r⟩ q ?_ ?_).symm
  · show win0_10.index t 0 * 128 + 1 * r.val = 128 * t.val + r.val
    rw [h0]; omega
  · show win0_10.index t 1 * 512 + 1 * q.val = q.val
    rw [h1]; omega

/-- An index of the distances array is in point `t`'s block iff each coordinate is in the block's range on its axis. -/
theorem mem_block_distArr (t : Fin cfg0.N) (i : S1024x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v14_1).slice (win0_10.rect t)).set ↔ _
  rw [View.set_slice_whole, Rect.mem_set_unit]
  exact Iff.rfl

/-- THE EIGHT BLOCKS COVER the distances array: row `p` lies in the block of point `p / 128`. -/
theorem cover_distArr (i : S1024x512.Idx) :
    ∃ t : Fin cfg0.N, (cfg0.win 10).flush t = true ∧ i ∈ ((cfg0.win 10).blk t).view.set := by
  have hi0 : (i 0).val < 1024 := idx2_lt0 i
  have hi1 : (i 1).val < 512 := idx2_lt1 i
  have hN : cfg0.N = 8 := grid_eight
  obtain ⟨t, ht⟩ : ∃ t : Fin cfg0.N, t.val = (i 0).val / 128 := ⟨⟨(i 0).val / 128, by rw [hN]; omega⟩, rfl⟩
  obtain ⟨-, -, -, -, -, -, -, -, -, -, ⟨h0, h1⟩, -⟩ := index_facts t
  refine ⟨t, flush0_10 t, ?_⟩
  rw [mem_block_distArr]
  intro a
  match a with
  | ⟨0, _⟩ =>
    show win0_10.index t 0 * 128 ≤ (i 0).val ∧ (i 0).val < win0_10.index t 0 * 128 + 128
    rw [h0, ht]; omega
  | ⟨1, _⟩ =>
    show win0_10.index t 1 * 512 ≤ (i 1).val ∧ (i 1).val < win0_10.index t 1 * 512 + 512
    rw [h1]; omega

/-- THE DISTANCES ARRAY after the run is `distArr`. -/
theorem final_distArr {c : Dev nD} (h : RealArgs m c) : (dats m 0 c).arrAt 10 cfg0.N = distArr m c :=
  (dats m 0 c).arrAt_eq_of_cover 10 (distArr m c) (fun t _ => flushed_distArr m h t) cover_distArr

/-- The reconstruction array at an index whose coordinates are (p, q) is row `p` of the reconstruction at `q`. -/
theorem reconArr_apply (c : Dev nD) (i : S1024x4096.Idx) (p : Fin 1024) (q : Fin 4096) (hp : (i 0).val = p.val) (hq : (i 1).val = q.val) :
    reconArr m c i = reconRow m c p q := by
  unfold reconArr
  rw [show (⟨(i 0).val, idx2_lt0 i⟩ : Fin 1024) = p from Fin.ext hp, show (⟨(i 1).val, idx2_lt1 i⟩ : Fin 4096) = q from Fin.ext hq]

/-- WHAT POINT `t` WRITES BACK to the reconstruction is block `t` (rows 128·t … 128·t + 127) of the reconstruction array. -/
theorem flushed_reconArr {c : Dev nD} (h : RealArgs m c) (t : Fin cfg0.N) :
    (dats m 0 c).flushed 11 t = ((cfg0.win 11).blk t).view.read (Elt Ideal) (reconArr m c) := by
  obtain ⟨-, -, -, -, -, -, -, -, -, -, -, ⟨h0, h1⟩⟩ := index_facts t
  show (cfg0.win 11).cut (grid0.coords t) ((dats m 0 c).after 11 t) = _
  rw [after0_11]
  funext y
  obtain ⟨r, q, rfl⟩ : ∃ (r : Fin 128) (q : Fin 4096), y = ix2 r q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (ix2 r q) = reconArr m c (((cfg0.win 11).blk t).view.emb (ix2 r q))
  rw [point_reconstruction h t r q]
  refine (reconArr_apply m c _ ⟨128 * t.val + r.val, row_in_range t r⟩ q ?_ ?_).symm
  · show win0_11.index t 0 * 128 + 1 * r.val = 128 * t.val + r.val
    rw [h0]; omega
  · show win0_11.index t 1 * 4096 + 1 * q.val = q.val
    rw [h1]; omega

/-- An index of the reconstruction array is in point `t`'s block iff each coordinate is in the block's range on its axis. -/
theorem mem_block_reconArr (t : Fin cfg0.N) (i : S1024x4096.Idx) :
    i ∈ ((cfg0.win 11).blk t).view.set ↔ ∀ a : Fin 2, win0_11.index t a * S128x4096.size a ≤ (i a).val ∧ (i a).val < win0_11.index t a * S128x4096.size a + S128x4096.size a := by
  show i ∈ ((View.whole main_v14_2).slice (win0_11.rect t)).set ↔ _
  rw [View.set_slice_whole, Rect.mem_set_unit]
  exact Iff.rfl

/-- THE EIGHT BLOCKS COVER the reconstruction array: row `p` lies in the block of point `p / 128`. -/
theorem cover_reconArr (i : S1024x4096.Idx) :
    ∃ t : Fin cfg0.N, (cfg0.win 11).flush t = true ∧ i ∈ ((cfg0.win 11).blk t).view.set := by
  have hi0 : (i 0).val < 1024 := idx2_lt0 i
  have hi1 : (i 1).val < 4096 := idx2_lt1 i
  have hN : cfg0.N = 8 := grid_eight
  obtain ⟨t, ht⟩ : ∃ t : Fin cfg0.N, t.val = (i 0).val / 128 := ⟨⟨(i 0).val / 128, by rw [hN]; omega⟩, rfl⟩
  obtain ⟨-, -, -, -, -, -, -, -, -, -, -, ⟨h0, h1⟩⟩ := index_facts t
  refine ⟨t, flush0_11 t, ?_⟩
  rw [mem_block_reconArr]
  intro a
  match a with
  | ⟨0, _⟩ =>
    show win0_11.index t 0 * 128 ≤ (i 0).val ∧ (i 0).val < win0_11.index t 0 * 128 + 128
    rw [h0, ht]; omega
  | ⟨1, _⟩ =>
    show win0_11.index t 1 * 4096 ≤ (i 1).val ∧ (i 1).val < win0_11.index t 1 * 4096 + 4096
    rw [h1]; omega

/-- THE RECONSTRUCTION ARRAY after the run is `reconArr`. -/
theorem final_reconArr {c : Dev nD} (h : RealArgs m c) : (dats m 0 c).arrAt 11 cfg0.N = reconArr m c :=
  (dats m 0 c).arrAt_eq_of_cover 11 (reconArr m c) (fun t _ => flushed_reconArr m h t) cover_reconArr

/-! ## The run, read -/

/-- THE KERNEL'S RUN on real data: every weakly fair execution ends with the three result arrays at `weightedArr`,
    `distArr` and `reconArr` of the argument arrays, and the argument arrays unchanged. -/
theorem run (hreal : ∀ c : Dev nD, RealArgs m c) :
    θ_run defs (onTc (τ := τ) (main (F := Ideal))) ⟨m, fun _ => 0, ρ⟩ fun r => ∀ c : Dev nD,
      r.2.mem ((c : Thread nD τ).loc main_v14_0) = weightedArr m c
      ∧ r.2.mem ((c : Thread nD τ).loc main_v14_1) = distArr m c
      ∧ r.2.mem ((c : Thread nD τ).loc main_v14_2) = reconArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).1 9).trans (final_weightedArr m (hreal c)),
     ((h c).1 10).trans (final_distArr m (hreal c)),
     ((h c).1 11).trans (final_reconArr m (hreal c)),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩)
    (run_main m ρ)

end Cert.KernelArrays

end
-- ==== Proof.lean ====
/-
  A clustering autoencoder, kernel against reference, on the extended reals.

  For every data row x both programs compute the code e = x·W + b, its reconstruction e·W' + b', the squared
  distances d j = Σ_k (e k − c j k)² of the code to 512 cluster rows, and those distances weighted by
  exp (−1000 (d j − min d)) / Σ_l exp (−1000 (d l − min d)).

  The reference computes exactly that. The kernel works on 128 rows per grid point and differs in three ways, none
  of which changes the value on real data. It forms each product in three passes over "high" and "low" parts of
  the operands; a change of float format being the identity on the extended reals, a high part is the operand and a
  low part is a − a, which is 0 because the operand is real — this is where the precondition (every input finite)
  is used, since ∞ − ∞ is not 0. It gets the squared distance from the expansion ‖e‖² + ‖c‖² − 2 e·c, which equals
  Σ (e − c)² for real numbers. And it clamps the result below by 0, which does nothing to a sum of squares.
  From equal rows of distances on, the minimum, the exponentials, their sum, the quotient and the product are the same
  operations on both sides.

  The modules: RowSpec (the four functions of a row), LibSplitSquares (the extended-real algebra), RealInputs (the
  precondition gives real entries), RefRows (the reference's results are the row functions), KernelDots and
  KernelRows (the body's values at an entry are the row functions of the block's row), KernelArrays (the blocks the
  eight grid points write back make up the whole-array functions). Here: the five claims.
-/
import proofs.«145956_j63814624084665_2_alg».proof.Defs
import proofs.«145956_j63814624084665_2_alg».proof.Proof.Gen.Kernel
import proofs.«145956_j63814624084665_2_alg».proof.Proof.Gen.Kernel.Skeleton
import proofs.«145956_j63814624084665_2_alg».proof.Proof.Gen.Kernel.Launch
import proofs.«145956_j63814624084665_2_alg».proof.Proof.Gen.Kernel.Points
import proofs.«145956_j63814624084665_2_alg».proof.Proof.Gen.Kernel.Frame
import proofs.«145956_j63814624084665_2_alg».proof.Proof.Gen.KernelIdeal
import proofs.«145956_j63814624084665_2_alg».proof.Proof.Gen.KernelIdeal.Skeleton
import proofs.«145956_j63814624084665_2_alg».proof.Proof.Gen.KernelIdeal.Launch
import proofs.«145956_j63814624084665_2_alg».proof.Proof.Gen.KernelIdeal.Points
import proofs.«145956_j63814624084665_2_alg».proof.Proof.Gen.KernelIdeal.Frame
import proofs.«145956_j63814624084665_2_alg».proof.Proof.Gen.ReferenceIdeal
import proofs.«145956_j63814624084665_2_alg».proof.Proof.Gen.Pre_finite_inputs
import proofs.«145956_j63814624084665_2_alg».proof.Proof.Gen.ReferenceIdeal.Run
import proofs.«145956_j63814624084665_2_alg».proof.Proof.Gen.ReferenceIdeal.Read
import proofs.«145956_j63814624084665_2_alg».proof.Proof.RealInputs
import proofs.«145956_j63814624084665_2_alg».proof.Proof.RefRows
import proofs.«145956_j63814624084665_2_alg».proof.Proof.KernelArrays
import Idealize.ShloMosaic.Adequacy
import Idealize.ShloMosaic.Init

noncomputable section

namespace Cert.Proof

open Idealize.ShloMosaic Idealize.ShloMosaic.ValueIdx Idealize.SL.Sem

/-- The kernel as printed runs, and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The two places where the idealized kernel drops a round trip through the narrow format, on the data block and on
    the code: on the extended reals the round trip is the identity. -/
theorem preserves : Cert.preserves_Kernel_KernelIdeal :=
  ⟨IdealRules.truncf_extf.statement Cert.KernelIdeal.S128x4096 .f32 .bf16,
   IdealRules.truncf_extf.statement Cert.KernelIdeal.S128x512 .f32 .bf16⟩

/-- On real inputs the idealized kernel and the idealized reference end with the same three arrays: the weighted
    distances, the distances and the reconstruction, each the row specification of every data row. -/
theorem algebraic : Cert.algebraic_KernelIdeal_ReferenceIdeal := by
  intro m ρ m' ρ' hpre hagree
  have hreal : ∀ c, Cert.KernelArrays.RealArgs m c := fun c => by
    obtain ⟨h0, h1, h2, h3, h4, h5⟩ := Cert.RealInputs.allReal_of_pre _ _ _ _ _ _ (hpre c)
    exact ⟨h0, h1, h2, h3, h4, h5⟩
  refine ⟨fun c => Cert.KernelArrays.weightedArr m c, fun c => Cert.KernelArrays.distArr m c,
    fun c => Cert.KernelArrays.reconArr m c, Cert.KernelArrays.run m ρ hreal, ?_⟩
  refine (θ_run Cert.ReferenceIdeal.defs _ _).mono (fun _ h c => ?_) (Cert.ReferenceIdeal.Value.run (F := Ideal) m' ρ')
  obtain ⟨e26, e14, e7, rest⟩ := h c
  obtain ⟨a0, a1, a2, a3, a4, a5⟩ := hagree c
  refine ⟨e26.trans ?_, e14.trans ?_, e7.trans ?_, rest⟩
  · rw [Cert.ReferenceIdeal.Read.val_main_v26_eq, a0, a1, a2, a3]
    funext i
    obtain ⟨p, j, rfl⟩ : ∃ (p : Fin 1024) (j : Fin 512), i = ix2 p j := ⟨i 0, i 1, eq_ix2 i⟩
    rw [Cert.RefRows.ref_weighted]
    exact (Cert.KernelArrays.weightedArr_apply m c (ix2 p j) p j rfl rfl).symm
  · rw [Cert.ReferenceIdeal.Read.val_main_v14_eq, a0, a1, a2, a3]
    funext i
    obtain ⟨p, j, rfl⟩ : ∃ (p : Fin 1024) (j : Fin 512), i = ix2 p j := ⟨i 0, i 1, eq_ix2 i⟩
    rw [Cert.RefRows.ref_distances]
    exact (Cert.KernelArrays.distArr_apply m c (ix2 p j) p j rfl rfl).symm
  · rw [Cert.ReferenceIdeal.Read.val_main_v7_eq, a0, a2, a3, a4, a5]
    funext i
    obtain ⟨p, n, rfl⟩ : ∃ (p : Fin 1024) (n : Fin 4096), i = ix2 p n := ⟨i 0, i 1, eq_ix2 i⟩
    rw [Cert.RefRows.ref_reconstruction]
    exact (Cert.KernelArrays.reconArr_apply m c (ix2 p n) p n rfl rfl).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
